-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : IVec S2x1600000 32) (main_arg2 : FVec F S64x64 .f32) (main_arg3 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S128x64 : Shape := ⟨2, ![128, 64]⟩
abbrev S5000x64 : Shape := ⟨2, ![5000, 64]⟩
abbrev S5000x1 : Shape := ⟨2, ![5000, 1]⟩
abbrev S5000x128 : Shape := ⟨2, ![5000, 128]⟩

abbrev nBuf : Space → Nat
  | .hbm => 33
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S100000x1, .f32⟩
  | .hbm, ⟨28, _⟩ => ⟨S64x64, .f32⟩
  | .hbm, ⟨29, _⟩ => ⟨S64x64, .f32⟩
  | .hbm, ⟨30, _⟩ => ⟨S128x64, .f32⟩
  | .hbm, ⟨31, _⟩ => ⟨S128x64, .bf16⟩
  | .hbm, ⟨32, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S128x64, .bf16⟩
  | .local _ .vmem, ⟨7, _⟩ => ⟨S5000x64, .f32⟩
  | .local _ .vmem, ⟨8, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  transposes_S64x64_S64x64_1_0 : S64x64.Transposes [1, 0] S64x64
  concatenates_S64x64_S64x64_S128x64_d0 : Shape.Concatenates [S64x64, S64x64] S128x64 0
  bitsLt_bf16_f32 : FTy.bits .bf16 < FTy.bits .f32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 41
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S64x64, .f32⟩
  | .hbm, ⟨39, _⟩ => ⟨S100000x64, .f32⟩
  | .hbm, ⟨40, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibKerLayout.lean ====
/-
  Rank-2 layout operations of the host read at a cell: a two-piece concatenation along either axis, a reversal
  along either axis, and zero-or-value padding on the right.
-/
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.HostValue

open Idealize.ShloMosaic Idealize.ShloMosaic.ValueIdx

variable {α : Type}

/-- Two blocks of rows stacked: a row of the first block. -/
theorem concat2_d0_left {a1 a2 n b : ℕ} (x₁ : (⟨2, ![a1, b]⟩ : Shape).Idx → α) (x₂ : (⟨2, ![a2, b]⟩ : Shape).Idx → α)
    (h : Shape.Concatenates [⟨2, ![a1, b]⟩, ⟨2, ![a2, b]⟩] ⟨2, ![n, b]⟩ (0 : Fin 2)) (i : Fin n) (q : Fin b) (hlt : i.val < a1) :
    concatenate ⟨2, ![n, b]⟩ (0 : Fin 2) [⟨⟨2, ![a1, b]⟩, x₁⟩, ⟨⟨2, ![a2, b]⟩, x₂⟩] h (ix2 i q) = x₁ (ix2 ⟨i.val, hlt⟩ q) :=
  concatenate_pair_apply_left (0 : Fin 2) x₁ x₂ h (ix2 i q) rfl (ix2 ⟨i.val, hlt⟩ q) (fun b => by
    match b with
    | ⟨0, _⟩ => rfl
    | ⟨1, _⟩ => rfl)

/-- Two blocks of rows stacked: a row of the second block. -/
theorem concat2_d0_right {a1 a2 n b : ℕ} (x₁ : (⟨2, ![a1, b]⟩ : Shape).Idx → α) (x₂ : (⟨2, ![a2, b]⟩ : Shape).Idx → α)
    (h : Shape.Concatenates [⟨2, ![a1, b]⟩, ⟨2, ![a2, b]⟩] ⟨2, ![n, b]⟩ (0 : Fin 2)) (i : Fin n) (q : Fin b) (hge : a1 ≤ i.val)
    (hlt : i.val - a1 < a2) :
    concatenate ⟨2, ![n, b]⟩ (0 : Fin 2) [⟨⟨2, ![a1, b]⟩, x₁⟩, ⟨⟨2, ![a2, b]⟩, x₂⟩] h (ix2 i q) = x₂ (ix2 ⟨i.val - a1, hlt⟩ q) :=
  concatenate_pair_apply_right (0 : Fin 2) x₁ x₂ h (ix2 i q) rfl rfl (ix2 ⟨i.val - a1, hlt⟩ q) (fun b hb => by
    match b with
    | ⟨0, _⟩ => exact absurd rfl hb
    | ⟨1, _⟩ => rfl) (by show (i.val - a1) + a1 = i.val; omega)

/-- Two blocks of columns side by side: a column of the first block. -/
theorem concat2_d1_left {a b1 b2 n : ℕ} (x₁ : (⟨2, ![a, b1]⟩ : Shape).Idx → α) (x₂ : (⟨2, ![a, b2]⟩ : Shape).Idx → α)
    (h : Shape.Concatenates [⟨2, ![a, b1]⟩, ⟨2, ![a, b2]⟩] ⟨2, ![a, n]⟩ (1 : Fin 2)) (i : Fin a) (q : Fin n) (hlt : q.val < b1) :
    concatenate ⟨2, ![a, n]⟩ (1 : Fin 2) [⟨⟨2, ![a, b1]⟩, x₁⟩, ⟨⟨2, ![a, b2]⟩, x₂⟩] h (ix2 i q) = x₁ (ix2 i ⟨q.val, hlt⟩) :=
  concatenate_pair_apply_left (1 : Fin 2) x₁ x₂ h (ix2 i q) rfl (ix2 i ⟨q.val, hlt⟩) (fun b => by
    match b with
    | ⟨0, _⟩ => rfl
    | ⟨1, _⟩ => rfl)

/-- Two blocks of columns side by side: a column of the second block. -/
theorem concat2_d1_right {a b1 b2 n : ℕ} (x₁ : (⟨2, ![a, b1]⟩ : Shape).Idx → α) (x₂ : (⟨2, ![a, b2]⟩ : Shape).Idx → α)
    (h : Shape.Concatenates [⟨2, ![a, b1]⟩, ⟨2, ![a, b2]⟩] ⟨2, ![a, n]⟩ (1 : Fin 2)) (i : Fin a) (q : Fin n) (hge : b1 ≤ q.val)
    (hlt : q.val - b1 < b2) :
    concatenate ⟨2, ![a, n]⟩ (1 : Fin 2) [⟨⟨2, ![a, b1]⟩, x₁⟩, ⟨⟨2, ![a, b2]⟩, x₂⟩] h (ix2 i q) = x₂ (ix2 i ⟨q.val - b1, hlt⟩) :=
  concatenate_pair_apply_right (1 : Fin 2) x₁ x₂ h (ix2 i q) rfl rfl (ix2 i ⟨q.val - b1, hlt⟩) (fun b hb => by
    match b with
    | ⟨0, _⟩ => rfl
    | ⟨1, _⟩ => exact absurd rfl hb) (by show (q.val - b1) + b1 = q.val; omega)

/-- The rows in reverse order. -/
theorem reverse2_d0 {a b : ℕ} (x : (⟨2, ![a, b]⟩ : Shape).Idx → α) (i : Fin a) (q : Fin b) :
    Host.reverse (s := ⟨2, ![a, b]⟩) [(0 : Fin 2)] x (ix2 i q) = x (ix2 i.rev q) := by
  unfold Host.reverse
  refine congrArg x (funext fun ax => ?_)
  match ax with
  | ⟨0, _⟩ => exact if_pos (List.mem_singleton.mpr (Fin.ext rfl))
  | ⟨1, _⟩ => exact if_neg (fun hm => absurd (congrArg Fin.val (List.mem_singleton.mp hm)) Nat.one_ne_zero)

/-- The columns in reverse order. -/
theorem reverse2_d1 {a b : ℕ} (x : (⟨2, ![a, b]⟩ : Shape).Idx → α) (i : Fin a) (q : Fin b) :
    Host.reverse (s := ⟨2, ![a, b]⟩) [(1 : Fin 2)] x (ix2 i q) = x (ix2 i q.rev) := by
  unfold Host.reverse
  refine congrArg x (funext fun ax => ?_)
  match ax with
  | ⟨0, _⟩ => exact if_neg (fun hm => absurd (congrArg Fin.val (List.mem_singleton.mp hm)) Nat.zero_ne_one)
  | ⟨1, _⟩ => exact if_pos (List.mem_singleton.mpr (Fin.ext rfl))

/-- Padding on the right by `p` columns: a column of the operand. -/
theorem pad2_right_inside {a b n p : ℕ} (x : (⟨2, ![a, b]⟩ : Shape).Idx → α) {u : Shape} (v : u.Idx → α)
    (h : (⟨2, ![a, b]⟩ : Shape).Pads ![0, 0] ![0, p] ![0, 0] ⟨2, ![a, n]⟩) (hu : 0 < u.numel) (i : Fin a) (q : Fin n) (hlt : q.val < b) :
    pad ⟨2, ![a, n]⟩ ![0, 0] ![0, p] ![0, 0] x v h hu (ix2 i q) = x (ix2 i ⟨q.val, hlt⟩) :=
  pad_apply_of_inside _ _ _ x v h hu (ix2 i q) (ix2 i ⟨q.val, hlt⟩) (fun ax => by
    match ax with
    | ⟨0, _⟩ => show i.val = 0 + i.val * (0 + 1); omega
    | ⟨1, _⟩ => show q.val = 0 + q.val * (0 + 1); omega)

/-- Padding on the right by `p` columns: a padding column holds the padding value. -/
theorem pad2_right_outside {a b n p : ℕ} (x : (⟨2, ![a, b]⟩ : Shape).Idx → α) {u : Shape} (v : u.Idx → α)
    (h : (⟨2, ![a, b]⟩ : Shape).Pads ![0, 0] ![0, p] ![0, 0] ⟨2, ![a, n]⟩) (hu : 0 < u.numel) (i : Fin a) (q : Fin n) (hge : b ≤ q.val) :
    pad ⟨2, ![a, n]⟩ ![0, 0] ![0, p] ![0, 0] x v h hu (ix2 i q) = v (Shape.Idx.first hu) :=
  pad_apply_of_not_inside _ _ _ x v h hu (ix2 i q) (1 : Fin 2) (fun hin => by
    have h3 : (q.val - 0) / (0 + 1) < b := hin.2.2
    simp at h3; omega)

end Cert.KernelIdeal.HostValue

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.Spec.lean ====
/-
  One graph-convolution layer with a dual linear update, as a function of its arrays, and the two small laws that
  join the two ways of computing it.

  For node `i` and output feature `j`, with `agg` the sum of the neighbours' feature rows, `deg` the number of
  incoming edges, `x` the node's own features and `W`, `B` two 64 × 64 weight matrices,

      out i j = ∑ k, (agg i k / max (deg i) 1) · W j k  +  ∑ k, x i k · B j k.

  One program forms the 128-long row `[agg i / max (deg i) 1 | x i]` and contracts it once against the stacked
  128 × 64 matrix `[Wᵀ ; Bᵀ]`; the other contracts the two 64-long halves separately and adds. A sum over 128
  terms is the sum of its two halves (addition of extended reals is commutative and associative; nothing has to be
  finite). One program guards the division with `max (deg i) 1`, the other replaces a zero degree by one; the
  degree is a count, so it is `0` or at least `1`, and on such a value the two guards agree (the counting facts
  are in the module on segment counts).
-/
import Idealize.ShloMosaic.PureOps.Ideal
import Idealize.ShloMosaic.PureOps.Ideal.Laws
import Idealize.ShloMosaic.Lib.ValueIdx

open scoped BigOperators

noncomputable section

namespace Cert.DualLinear

open Idealize.ShloMosaic Idealize.ShloMosaic.ValueIdx

/-- The layer's output at node `i 0`, feature `i 1`. -/
def out (agg x : (⟨2, ![100000, 64]⟩ : Shape).Idx → EReal) (deg : (⟨1, ![100000]⟩ : Shape).Idx → EReal)
    (W B : (⟨2, ![64, 64]⟩ : Shape).Idx → EReal) : (⟨2, ![100000, 64]⟩ : Shape).Idx → EReal := fun i =>
  (∑ k : Fin 64, Ideal.div (agg (ix2 (i 0) k)) (max (deg (ix1 (i 0))) 1) * W (ix2 (i 1) k))
    + ∑ k : Fin 64, x (ix2 (i 0) k) * B (ix2 (i 1) k)

/-- A sum of 128 terms is the sum of its first 64 and its last 64. -/
theorem sum_halves (f : Fin 128 → EReal) :
    ∑ k : Fin 128, f k
      = (∑ k : Fin 64, f ⟨k.val, by have := k.isLt; omega⟩) + ∑ k : Fin 64, f ⟨64 + k.val, by have := k.isLt; omega⟩ :=
  Fin.sum_univ_add (M := EReal) (a := 64) (b := 64) f

end Cert.DualLinear

end
-- ==== Proof.KernelCell.lean ====
/-
  What the kernel's body stores, at one cell of its output block.

  At a grid point the body sees 5000 nodes: their aggregated messages `a` and own features `x` (5000 × 64 each),
  their degrees `d` as a column (5000 × 1), and the stacked weights `w` (128 × 64). It forms the 5000 × 128 array
  whose row `p` is `[a p / max (d p) 1 | x p]` and contracts it with `w`. At cell `(p, q)` that is a sum over 128
  positions, which splits into the first 64 (the normalized messages against rows 0–63 of `w`) and the last 64
  (the own features against rows 64–127 of `w`). Changing the float format is the identity on extended reals.
-/
import proofs.«167406_j31671088841315_2_alg».proof.Proof.Gen.KernelIdeal.Skeleton
import Idealize.ShloMosaic.Lib.ValueIdx
import Idealize.ShloMosaic.Lib.IdealHost
import Idealize.ShloMosaic.Lib.Pipeline.Value
import Idealize.ShloMosaic.PureOps.Ideal.Laws
import proofs.«167406_j31671088841315_2_alg».proof.Proof.LibKerLayout
import proofs.«167406_j31671088841315_2_alg».proof.Proof.LibKeepdims
import proofs.«167406_j31671088841315_2_alg».proof.Proof.Spec

open scoped BigOperators

noncomputable section

namespace Cert.KernelIdeal.Cell

open Cert.KernelIdeal Cert.KernelIdeal.Gen Idealize.ShloMosaic Idealize.ShloMosaic.ValueIdx

/-- The 5000 × 128 array the body contracts: each row the node's messages over its guarded degree, then its own
    features. -/
def rows (d : Vec Ideal S5000x1 .f32) (a x : Vec Ideal S5000x64 .f32) : FVec Ideal S5000x128 .bf16 :=
  truncf .bf16 (concatenate S5000x128 1
    [⟨S5000x64, divf (shapeCast S5000x64 a shapeCasts_S5000x64_S5000x64)
        (broadcastTo S5000x64 (maximumf (shapeCast S5000x1 d shapeCasts_S5000x1_S5000x1)
          (broadcast S5000x1 (Scalar.ofBits (F := Ideal) .f32 0x3F800000#32))) broadcasts_S5000x1_S5000x64)⟩,
     ⟨S5000x64, x⟩] concatenates_S5000x64_S5000x64_S5000x128_d1) bitsLt_bf16_f32

/-- The body's payload is the contraction of those rows with the weights, into zeros. -/
theorem pay_eq (d : Vec Ideal S5000x1 .f32) (a x : Vec Ideal S5000x64 .f32) (w : Vec Ideal S128x64 .bf16) :
    k0_pay1 (F := Ideal) d a x w
      = matmul dot_S5000x128_S128x64_S5000x64_1_0_0_1_n_n none (rows d a x)
          (shapeCast S128x64 w shapeCasts_S128x64_S128x64 : FVec Ideal S128x64 .bf16)
          (constant (F := Ideal) S5000x64 .f32 0x00000000#32) := rfl

/-- Position `k < 64` of row `p`: the message entry over the guarded degree. -/
theorem rows_left (d : Vec Ideal S5000x1 .f32) (a x : Vec Ideal S5000x64 .f32) (p : Fin 5000) (k : Fin 64) :
    rows d a x (ix2 p (⟨k.val, by have := k.isLt; omega⟩ : Fin 128))
      = Ideal.div (a (ix2 p k)) (max (d (ix2 p (0 : Fin 1))) 1) := by
  unfold rows
  rw [truncf_apply]
  refine (Cert.KernelIdeal.HostValue.concat2_d1_left _ _ concatenates_S5000x64_S5000x64_S5000x128_d1 p
    (⟨k.val, by have := k.isLt; omega⟩ : Fin 128) k.isLt).trans ?_
  rw [divf_apply, shapeCast_self, broadcastTo_a1_ab_apply, maximumf_apply, shapeCast_self, broadcast_apply]
  show Ideal.div (a (ix2 p k)) (max (d (ix2 p (0 : Fin 1))) (Ideal.ofBits .f32 0x3F800000#32)) = _
  rw [Ideal.ofBits_one_f32]

/-- Position `64 + k` of row `p`: the node's own feature `k`. -/
theorem rows_right (d : Vec Ideal S5000x1 .f32) (a x : Vec Ideal S5000x64 .f32) (p : Fin 5000) (k : Fin 64) :
    rows d a x (ix2 p (⟨64 + k.val, by have := k.isLt; omega⟩ : Fin 128)) = x (ix2 p k) := by
  unfold rows
  rw [truncf_apply]
  refine (Cert.KernelIdeal.HostValue.concat2_d1_right _ _ concatenates_S5000x64_S5000x64_S5000x128_d1 p
    (⟨64 + k.val, by have := k.isLt; omega⟩ : Fin 128) (by show 64 ≤ 64 + k.val; omega)
    (by show 64 + k.val - 64 < 64; have := k.isLt; omega)).trans ?_
  refine congrArg x (congrArg (ix2 p) (Fin.ext ?_))
  show 64 + k.val - 64 = k.val
  omega

/-! ## The contraction's operand indices -/

theorem lhs_0 (i : S5000x64.Idx) (c : dot_S5000x128_S128x64_S5000x64_1_0_0_1_n_n.contr.Idx) : (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

theorem lhs_1 (i : S5000x64.Idx) (c : dot_S5000x128_S128x64_S5000x64_1_0_0_1_n_n.contr.Idx) : (dot_S5000x128_S128x64_S5000x64_1_0_0_1_n_n.lhsIdx i c 1).val = (c ⟨0, by decide⟩).val :=
  dot_S5000x128_S128x64_S5000x64_1_0_0_1_n_n.lhsIdx_val_of_single rfl i c

theorem rhs_0 (i : S5000x64.Idx) (c : dot_S5000x128_S128x64_S5000x64_1_0_0_1_n_n.contr.Idx) : (dot_S5000x128_S128x64_S5000x64_1_0_0_1_n_n.rhsIdx i c 0).val = (c ⟨0, by decide⟩).val :=
  dot_S5000x128_S128x64_S5000x64_1_0_0_1_n_n.rhsIdx_val_of_single rfl i c

theorem rhs_1 (i : S5000x64.Idx) (c : dot_S5000x128_S128x64_S5000x64_1_0_0_1_n_n.contr.Idx) : (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- A contraction of a 5000 × 128 array with a 128 × 64 array into zeros, at cell `(p, q)`: the sum over the 128
    positions of the row entry times the column entry. -/
theorem matmul_cell (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k :=
    funext fun a => Fin.ext (by
      match a with
      | ⟨0, _⟩ => exact lhs_0 _ _
      | ⟨1, _⟩ => exact (lhs_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-- THE PAYLOAD AT CELL `(p, q)`: the normalized messages against the first 64 weight rows plus the own features
    against the last 64. -/
theorem pay_cell (d : Vec Ideal S5000x1 .f32) (a x : Vec Ideal S5000x64 .f32) (w : Vec Ideal S128x64 .bf16)
    (p : Fin 5000) (q : Fin 64) :
    k0_pay1 (F := Ideal) d a x w (ix2 p q)
      = (∑ k : Fin 64, Ideal.div (a (ix2 p k)) (max (d (ix2 p (0 : Fin 1))) 1)
            * w (ix2 (⟨k.val, by have := k.isLt; omega⟩ : Fin 128) q))
        + ∑ k : Fin 64, x (ix2 p k) * w (ix2 (⟨64 + k.val, by have := k.isLt; omega⟩ : Fin 128) q) := by
  rw [pay_eq, matmul_cell, shapeCast_self, Cert.DualLinear.sum_halves]
  congr 1
  · exact Finset.sum_congr rfl fun k _ => by rw [rows_left]
  · exact Finset.sum_congr rfl fun k _ => by rw [rows_right]

end Cert.KernelIdeal.Cell

end
-- ==== Proof.KernelHost.lean ====
/-
  What the kernel program's host operations leave in the arrays its pallas_call stages.

  Before the call the program gathers each edge's source row of `x` and adds it into zeros at the edge's destination
  (`agg`), adds a one into zeros at each edge's destination (`deg`) and reshapes that vector to a column, and stacks
  the two transposed weight matrices, `Wᵀ` above `Bᵀ`, into one 128 × 64 array in the narrow float format (the
  identity on extended reals). The call's four input windows stage `agg`, `x` itself, the degree column and the
  stacked weights. Read at a cell: the column's entry `(p, 0)` is the degree of node `p`; the stacked array's row
  `k < 64` is column `k` of `W` and its row `64 + k` is column `k` of `B`.
-/
import proofs.«167406_j31671088841315_2_alg».proof.Proof.Gen.KernelIdeal.Frame
import Idealize.ShloMosaic.Lib.StableHlo.Run
import Idealize.ShloMosaic.Lib.ValueIdx
import Idealize.ShloMosaic.Lib.Pipeline.Value
import proofs.«167406_j31671088841315_2_alg».proof.Proof.LibKerLayout
import proofs.«167406_j31671088841315_2_alg».proof.Proof.LibKeepdims

noncomputable section

namespace Cert.KernelIdeal.HostStage

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-! ## The stages -/

/-- Row 0 of the edge list: each edge's source node index. -/
def srcRow (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Row 1 of the edge list: each edge's destination node index. -/
def dstRow (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The source indices as a gather's start indices: a negative one has the node count added. -/
def srcIdx (e : (⟨S2x1600000, .i32⟩ : BufTy).Contents (Elt F)) : (⟨S1600000x1, .i32⟩ : BufTy).Contents (Elt F) :=
  broadcastInDim S1600000x1 ![0] bcast_S1600000_S1600000x1_0
    (select (cmpi .slt (srcRow (F := F) e) (broadcastInDim S1600000 ![] bcast_S_S1600000 (constantI S_ 32 0#32)))
      (addi (srcRow (F := F) e) (broadcastInDim S1600000 ![] bcast_S_S1600000 (constantI S_ 32 100000#32)))
      (srcRow (F := F) e))

/-- The destination indices as a scatter's start indices. -/
def dstIdx (e : (⟨S2x1600000, .i32⟩ : BufTy).Contents (Elt F)) : (⟨S1600000x1, .i32⟩ : BufTy).Contents (Elt F) :=
  broadcastInDim S1600000x1 ![0] bcast_S1600000_S1600000x1_0 (dstRow (F := F) e)

/-- The aggregated messages: zeros, with each edge's source row of `x` added at the edge's destination node. -/
def agg (x : (⟨S100000x64, .f32⟩ : BufTy).Contents (Elt F)) (e : (⟨S2x1600000, .i32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant (F := F) S_ .f32 0x00000000#32))
    (dstIdx (F := F) e)
    (Host.gather gather_S100000x64_S1600000x1_S1600000x64_1_0_n_n_0_1_164 x (srcIdx (F := F) e))

/-- The in-degrees: zeros, with a one added at each edge's destination node. -/
def deg (e : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32))
    (dstIdx (F := F) e)
    (broadcastInDim S1600000 ![] bcast_S_S1600000 (constant (F := F) S_ .f32 0x3F800000#32))

/-- The in-degrees as a column. -/
def degCol (e : (⟨S2x1600000, .i32⟩ : BufTy).Contents (Elt F)) : (⟨S100000x1, .f32⟩ : BufTy).Contents (Elt F) :=
  shapeCast S100000x1 (deg (F := F) e) shapeCasts_S100000_S100000x1

/-- The stacked weights: `Wᵀ` above `Bᵀ`. -/
def weights (W B : (⟨S64x64, .f32⟩ : BufTy).Contents (Elt F)) : (⟨S128x64, .bf16⟩ : BufTy).Contents (Elt F) :=
  truncf .bf16 (concatenate S128x64 0
    [⟨S64x64, transpose S64x64 [1, 0] W transposes_S64x64_S64x64_1_0⟩,
     ⟨S64x64, transpose S64x64 [1, 0] B transposes_S64x64_S64x64_1_0⟩] concatenates_S64x64_S64x64_S128x64_d0) bitsLt_bf16_f32

/-! ## What the region finds -/

variable (m : (ℓ : Loc nD τ sig) → Buf (Elt F) ℓ)

/-- Window 0's array holds the aggregated messages. -/
theorem V_main_v13 (c : Dev nD) :
    (V m c main_v13 : S100000x64.Idx → Elt F .f32)
      = agg (F := F) (m ((c : Thread nD τ).loc main_arg0)) (m ((c : Thread nD τ).loc main_arg1)) := by
  dsimp only [Gen.V, Gen.hostOps0]
  after_results
  rfl

/-- Window 2's array holds the degree column. -/
theorem V_main_v18 (c : Dev nD) :
    (V m c main_v18 : S100000x1.Idx → Elt F .f32) = degCol (F := F) (m ((c : Thread nD τ).loc main_arg1)) := by
  dsimp only [Gen.V, Gen.hostOps0]
  after_results
  rfl

/-- Window 3's array holds the stacked weights. -/
theorem V_main_v22 (c : Dev nD) :
    (V m c main_v22 : S128x64.Idx → Elt F .bf16)
      = weights (F := F) (m ((c : Thread nD τ).loc main_arg2)) (m ((c : Thread nD τ).loc main_arg3)) := by
  dsimp only [Gen.V, Gen.hostOps0]
  after_results
  rfl

/-! ## The re-laid arrays at a cell -/

/-- Entry `(p, 0)` of the degree column is the degree of node `p`. -/
theorem degCol_cell (e : (⟨S2x1600000, .i32⟩ : BufTy).Contents (Elt Ideal)) (p : Fin 100000) :
    degCol (F := Ideal) e (ix2 p (0 : Fin 1)) = deg (F := Ideal) e (ix1 p) :=
  shapeCast_a_a1_apply _ shapeCasts_S100000_S100000x1 p (0 : Fin 1)

/-- Entry `(k, q)` of a transposed 64 × 64 matrix is entry `(q, k)`. -/
theorem transpose_cell {α : Type} (W : S64x64.Idx → α) (k q : Fin 64) :
    transpose S64x64 [1, 0] W transposes_S64x64_S64x64_1_0 (ix2 k q) = W (ix2 q k) :=
  transpose_apply [1, 0] W transposes_S64x64_S64x64_1_0 (ix2 k q) (ix2 q k) (fun b => match b with
    | ⟨0, _⟩ => rfl
    | ⟨1, _⟩ => rfl)

/-- Row `k < 64` of the stacked weights is column `k` of `W`. -/
theorem weights_top (W B : (⟨S64x64, .f32⟩ : BufTy).Contents (Elt Ideal)) (k q : Fin 64) :
    weights (F := Ideal) W B (ix2 (⟨k.val, by have := k.isLt; omega⟩ : Fin 128) q) = W (ix2 q k) := by
  unfold weights
  rw [truncf_apply]
  refine (Cert.KernelIdeal.HostValue.concat2_d0_left _ _ concatenates_S64x64_S64x64_S128x64_d0
    (⟨k.val, by have := k.isLt; omega⟩ : Fin 128) q k.isLt).trans ?_
  exact transpose_cell W k q

/-- Row `64 + k` of the stacked weights is column `k` of `B`. -/
theorem weights_bottom (W B : (⟨S64x64, .f32⟩ : BufTy).Contents (Elt Ideal)) (k q : Fin 64) :
    weights (F := Ideal) W B (ix2 (⟨64 + k.val, by have := k.isLt; omega⟩ : Fin 128) q) = B (ix2 q k) := by
  unfold weights
  rw [truncf_apply]
  refine (Cert.KernelIdeal.HostValue.concat2_d0_right _ _ concatenates_S64x64_S64x64_S128x64_d0
    (⟨64 + k.val, by have := k.isLt; omega⟩ : Fin 128) q (by show 64 ≤ 64 + k.val; omega)
    (by show 64 + k.val - 64 < 64; have := k.isLt; omega)).trans ?_
  refine (transpose_cell B _ q).trans (congrArg B (congrArg (ix2 q) (Fin.ext ?_)))
  show 64 + k.val - 64 = k.val
  omega

end Cert.KernelIdeal.HostStage

end
-- ==== Proof.KernelWhole.lean ====
/-
  From the blocks the kernel writes to the whole result array.

  The grid has 20 points; point `t` handles nodes `5000 t … 5000 t + 4999`. Its three row-blocked input windows
  (the aggregated messages, the features, the degree column) and its output window all sit at block row `t`; the
  stacked weights are one block, the same at every point. So cell `(p, q)` of what point `t` writes back is the
  layer's output at node `5000 t + p`, feature `q`, computed from the four staged arrays; the 20 blocks tile the
  100000 × 64 result, node `n` lying in the block of point `n / 5000`; hence the result array ends holding the
  layer's output everywhere.
-/
import proofs.«167406_j31671088841315_2_alg».proof.Proof.Gen.KernelIdeal.Value
import proofs.«167406_j31671088841315_2_alg».proof.Proof.KernelCell
import proofs.«167406_j31671088841315_2_alg».proof.Proof.KernelHost
import proofs.«167406_j31671088841315_2_alg».proof.Proof.Spec
import Idealize.ShloMosaic.Lib.Pipeline.Value
import Idealize.ShloMosaic.Lib.ValueIdx

open scoped BigOperators

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-! ## The layer's output over the four staged arrays -/

/-- The layer's output at node `i 0`, feature `i 1`, from the aggregated messages `A`, the features `X`, the
    degree column `D` and the stacked weights `WB` (rows 0–63 the columns of one matrix, rows 64–127 of the other). -/
def outW (A X : S100000x64.Idx → EReal) (D : S100000x1.Idx → EReal) (WB : S128x64.Idx → EReal) : S100000x64.Idx → EReal :=
  fun i =>
    (∑ k : Fin 64, Ideal.div (A (ix2 (i 0) k)) (max (D (ix2 (i 0) (0 : Fin 1))) 1)
        * WB (ix2 (⟨k.val, by have := k.isLt; omega⟩ : Fin 128) (i 1)))
      + ∑ k : Fin 64, X (ix2 (i 0) k) * WB (ix2 (⟨64 + k.val, by have := k.isLt; omega⟩ : Fin 128) (i 1))

/-- One block: if the body's four loaded blocks are the arrays' entries at the rows `r p`, its payload at cell
    `(p, q)` is the layer's output at `(r p, q)`. -/
theorem block_cell (A X : S100000x64.Idx → EReal) (D : S100000x1.Idx → EReal) (WB : S128x64.Idx → EReal)
    (a x : Vec Ideal S5000x64 .f32) (d : Vec Ideal S5000x1 .f32) (w : Vec Ideal S128x64 .bf16) (r : Fin 5000 → Fin 100000)
    (ha : ∀ (p : Fin 5000) (k : Fin 64), a (ix2 p k) = A (ix2 (r p) k))
    (hx : ∀ (p : Fin 5000) (k : Fin 64), x (ix2 p k) = X (ix2 (r p) k))
    (hd : ∀ p : Fin 5000, d (ix2 p (0 : Fin 1)) = D (ix2 (r p) (0 : Fin 1)))
    (hw : ∀ (k : Fin 128) (q : Fin 64), w (ix2 k q) = WB (ix2 k q))
    (p : Fin 5000) (q : Fin 64) :
    k0_pay1 (F := Ideal) d a x w (ix2 p q) = outW A X D WB (ix2 (r p) q) := by
  rw [Cert.KernelIdeal.Cell.pay_cell]
  unfold outW
  simp only [ha, hx, hd, hw]

/-! ## The index maps -/

theorem hz : (![0, 0] : Fin 2 → Nat) = fun _ => 0 := funext fun a => by fin_cases a <;> rfl

/-- The printed index maps, decided over the grid: every row-blocked window is at block row `t`, block column 0;
    the weights' window is at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 20 :=
  Nat.lt_of_lt_of_eq t.isLt (show cfg0.N = 20 from N_0)

/-- The node that row `p` of point `t`'s blocks is. -/
def row (t : Fin cfg0.N) (p : Fin 5000) : Fin 100000 :=
  ⟨t.val * 5000 + p.val, by have := t_lt t; have := p.isLt; omega⟩

theorem emb0 (t : Fin cfg0.N) (p : Fin 5000) (k : Fin 64) :
    ((cfg0.win 0).blk t).view.emb (ix2 p k : S5000x64.Idx) = (ix2 (row t p) k : S100000x64.Idx) := by
  obtain ⟨e0, e1, -⟩ := idx_facts t
  funext a; apply Fin.ext
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

theorem emb1 (t : Fin cfg0.N) (p : Fin 5000) (k : Fin 64) :
    ((cfg0.win 1).blk t).view.emb (ix2 p k : S5000x64.Idx) = (ix2 (row t p) k : S100000x64.Idx) := by
  obtain ⟨-, -, e0, e1, -⟩ := idx_facts t
  funext a; apply Fin.ext
  match a with
  | ⟨0, _⟩ => show win0_1.index t (0 : Fin 2) * 5000 + 1 * p.val = t.val * 5000 + p.val; rw [e0]; omega
  | ⟨1, _⟩ => show win0_1.index t (1 : Fin 2) * 64 + 1 * k.val = k.val; rw [e1]; omega

theorem emb2 (t : Fin cfg0.N) (p : Fin 5000) :
    ((cfg0.win 2).blk t).view.emb (ix2 p (0 : Fin 1) : S5000x1.Idx) = (ix2 (row t p) (0 : Fin 1) : S100000x1.Idx) := by
  obtain ⟨-, -, -, -, e0, e1, -⟩ := idx_facts t
  funext a; apply Fin.ext
  match a with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

theorem emb3 (t : Fin cfg0.N) (k : Fin 128) (q : Fin 64) :
    ((cfg0.win 3).blk t).view.emb (ix2 k q : S128x64.Idx) = (ix2 k q : S128x64.Idx) := by
  obtain ⟨-, -, -, -, -, -, e0, e1, -⟩ := idx_facts t
  funext a; apply Fin.ext
  match a with
  | ⟨0, _⟩ => show win0_3.index t (0 : Fin 2) * 128 + 1 * k.val = k.val; rw [e0]; omega
  | ⟨1, _⟩ => show win0_3.index t (1 : Fin 2) * 64 + 1 * q.val = q.val; rw [e1]; omega

theorem emb4 (t : Fin cfg0.N) (p : Fin 5000) (q : Fin 64) :
    ((cfg0.win 4).blk t).view.emb (ix2 p q : S5000x64.Idx) = (ix2 (row t p) q : S100000x64.Idx) := by
  obtain ⟨-, -, -, -, -, -, -, -, e0, e1⟩ := idx_facts t
  funext a; apply Fin.ext
  match a with
  | ⟨0, _⟩ => show win0_4.index t (0 : Fin 2) * 5000 + 1 * p.val = t.val * 5000 + p.val; rw [e0]; omega
  | ⟨1, _⟩ => show win0_4.index t (1 : Fin 2) * 64 + 1 * q.val = q.val; rw [e1]; omega

/-! ## What each point writes back, and the whole array -/

variable (m : (ℓ : Loc nD τ sig) → Buf (Elt Ideal) ℓ) (ρ : Dev nD → PrngReg)

/-- The same statement for ANY contents `VV` of the region's arrays: the body's payload on the four blocks read
    off `VV` at point `t` is block `t` of the layer's output over `VV`'s four staged arrays. -/
theorem flushed_core (c : Dev nD) (VV : (b : Ref sig .tc) → Buf (Elt Ideal) ((c : Thread nD τ).loc b)) (t : Fin cfg0.N) :
    (cfg0.win 4).cut (grid0.coords t)
        (k0_pay1 (F := Ideal) (((cfg0.win 2).blk t).view.read (Elt Ideal) (VV (Pipeline.arrRef spec0 2)))
          (((cfg0.win 0).blk t).view.read (Elt Ideal) (VV (Pipeline.arrRef spec0 0)))
          (((cfg0.win 1).blk t).view.read (Elt Ideal) (VV (Pipeline.arrRef spec0 1)))
          (((cfg0.win 3).blk t).view.read (Elt Ideal) (VV (Pipeline.arrRef spec0 3))))
      = ((cfg0.win 4).blk t).view.read (Elt Ideal) (outW (VV main_v13) (VV main_arg0) (VV main_v18) (VV main_v22)) := by
  funext j
  obtain ⟨p, q, rfl⟩ : ∃ (p : Fin 5000) (q : Fin 64), j = ix2 p q := ⟨j 0, j 1, eq_ix2 j⟩
  show k0_pay1 (F := Ideal) (((cfg0.win 2).blk t).view.read (Elt Ideal) (VV (Pipeline.arrRef spec0 2)))
      (((cfg0.win 0).blk t).view.read (Elt Ideal) (VV (Pipeline.arrRef spec0 0)))
      (((cfg0.win 1).blk t).view.read (Elt Ideal) (VV (Pipeline.arrRef spec0 1)))
      (((cfg0.win 3).blk t).view.read (Elt Ideal) (VV (Pipeline.arrRef spec0 3))) (ix2 p q)
    = outW (VV main_v13) (VV main_arg0) (VV main_v18) (VV main_v22) (((cfg0.win 4).blk t).view.emb (ix2 p q))
  rw [emb4 t p q]
  exact block_cell (VV main_v13) (VV main_arg0) (VV main_v18) (VV main_v22)
    (((cfg0.win 0).blk t).view.read (Elt Ideal) (VV (Pipeline.arrRef spec0 0)))
    (((cfg0.win 1).blk t).view.read (Elt Ideal) (VV (Pipeline.arrRef spec0 1)))
    (((cfg0.win 2).blk t).view.read (Elt Ideal) (VV (Pipeline.arrRef spec0 2)))
    (((cfg0.win 3).blk t).view.read (Elt Ideal) (VV (Pipeline.arrRef spec0 3))) (row t)
    (fun p k => congrArg (VV main_v13 : S100000x64.Idx → EReal) (emb0 t p k))
    (fun p k => congrArg (VV main_arg0 : S100000x64.Idx → EReal) (emb1 t p k))
    (fun p => congrArg (VV main_v18 : S100000x1.Idx → EReal) (emb2 t p))
    (fun k q => congrArg (VV main_v22 : S128x64.Idx → EReal) (emb3 t k q)) p q

/-- WHAT POINT `t` WRITES BACK is block `t` of the layer's output over the arrays as the region finds them. -/
theorem flushed_eq (c : Dev nD) (t : Fin cfg0.N) :
    (dats m 0 c).flushed 4 t = ((cfg0.win 4).blk t).view.read (Elt Ideal)
      (outW (V m c main_v13) (V m c main_arg0) (V m c main_v18) (V m c main_v22)) := by
  rw [Cert.KernelIdeal.Value.flushed4]
  unfold out0_4
  rw [View.canon_unit_zero hz]
  simp only [View.ld_unit_zero (S := S5000x64) hz, View.ld_unit_zero (S := S5000x1) hz, View.ld_unit_zero (S := S128x64) hz]
  unfold iblk
  exact flushed_core c (V m c) t

/-- An index of the array is in point `t`'s block iff each coordinate is in the block's range on its axis. -/
theorem mem_blk (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v23).slice (win0_4.rect t)).set ↔ _
  rw [View.set_slice_whole, Rect.mem_set_unit]
  exact Iff.rfl

/-- Every cell of the result is in the block of the point its node's row falls to. -/
theorem cover (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have ht : (i 0).val / 5000 < cfg0.N := by rw [show cfg0.N = 20 from N_0]; omega
  obtain ⟨-, -, -, -, -, -, -, -, e0, e1⟩ := idx_facts ⟨(i 0).val / 5000, ht⟩
  refine ⟨⟨(i 0).val / 5000, ht⟩, flush0_4 _, ?_⟩
  rw [mem_blk]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_4.index ⟨(i 0).val / 5000, ht⟩ (1 : Fin 2) * 64 ≤ (i 1).val
      ∧ (i 1).val < win0_4.index ⟨(i 0).val / 5000, ht⟩ (1 : Fin 2) * 64 + 64
    rw [e1]
    omega

/-- THE RESULT ARRAY after the run is the layer's output over the arrays as the region finds them. -/
theorem final (c : Dev nD) :
    (dats m 0 c).arrAt 4 cfg0.N = outW (V m c main_v13) (V m c main_arg0) (V m c main_v18) (V m c main_v22) :=
  (dats m 0 c).arrAt_eq_of_cover 4 _ (fun t _ => flushed_eq m c t) cover

end Cert.KernelIdeal.Whole

end
-- ==== Proof.RefRun.lean ====
/-
  The reference program run and read back: its thirty-seven host operations in order, and the array it leaves in
  its result buffer as one term of the four argument arrays.

  The term is cut at the stages the mathematics names: the two rows of the edge list as vectors of node indices
  (a negative source index wrapped once by the node count, as array indexing does); `agg`, zeros with each edge's
  gathered source row added at the edge's destination; `deg`, zeros with a one added at each edge's destination;
  the degree with a zero replaced by one; and the result, `(agg / guarded degree) · Wᵀ + x · Bᵀ`.
-/
import proofs.«167406_j31671088841315_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- Row 0 of the edge list: each edge's source node index. -/
def srcRow (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Row 1 of the edge list: each edge's destination node index. -/
def dstRow (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The source indices as a gather's start indices: a negative one has the node count added. -/
def srcIdx (e : (⟨S2x1600000, .i32⟩ : BufTy).Contents (Elt F)) : (⟨S1600000x1, .i32⟩ : BufTy).Contents (Elt F) :=
  broadcastInDim S1600000x1 ![0] bcast_S1600000_S1600000x1_0
    (select (cmpi .slt (srcRow (F := F) e) (broadcastInDim S1600000 ![] bcast_S_S1600000 (constantI S_ 32 0#32)))
      (addi (srcRow (F := F) e) (broadcastInDim S1600000 ![] bcast_S_S1600000 (constantI S_ 32 100000#32)))
      (srcRow (F := F) e))

/-- The destination indices as a scatter's start indices. -/
def dstIdx (e : (⟨S2x1600000, .i32⟩ : BufTy).Contents (Elt F)) : (⟨S1600000x1, .i32⟩ : BufTy).Contents (Elt F) :=
  broadcastInDim S1600000x1 ![0] bcast_S1600000_S1600000x1_0 (dstRow (F := F) e)

/-- The aggregated messages: zeros, with each edge's source row of `x` added at the edge's destination node. -/
def agg (x : (⟨S100000x64, .f32⟩ : BufTy).Contents (Elt F)) (e : (⟨S2x1600000, .i32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant (F := F) S_ .f32 0x00000000#32))
    (dstIdx (F := F) e)
    (Host.gather gather_S100000x64_S1600000x1_S1600000x64_1_0_n_n_0_1_164 x (srcIdx (F := F) e))

/-- The in-degrees: zeros, with a one added at each edge's destination node. -/
def deg (e : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32))
    (dstIdx (F := F) e)
    (broadcastInDim S1600000 ![] bcast_S_S1600000 (constant (F := F) S_ .f32 0x3F800000#32))

/-- The in-degrees with a zero replaced by one. -/
def degGuarded (e : (⟨S2x1600000, .i32⟩ : BufTy).Contents (Elt F)) : (⟨S100000, .f32⟩ : BufTy).Contents (Elt F) :=
  select (cmpf .oeq (deg (F := F) e) (broadcastInDim S100000 ![] bcast_S_S100000 (constant (F := F) S_ .f32 0x00000000#32)))
    (broadcastInDim S100000 ![] bcast_S_S100000 (constant (F := F) S_ .f32 0x3F800000#32))
    (deg (F := F) e)

/-- The result: the normalized messages times `Wᵀ` plus the nodes' own features times `Bᵀ`. -/
def result (x : (⟨S100000x64, .f32⟩ : BufTy).Contents (Elt F)) (e : (⟨S2x1600000, .i32⟩ : BufTy).Contents (Elt F)) (W B : (⟨S64x64, .f32⟩ : BufTy).Contents (Elt F)) : (⟨S100000x64, .f32⟩ : BufTy).Contents (Elt F) :=
  addf
    (Host.dotGeneral dot_S100000x64_S64x64_S100000x64_1_0_0_1_n_n none
      (Host.divf (agg (F := F) x e)
        (broadcastInDim S100000x64 ![0, 1] bcast_S100000x1_S100000x64_0_1
          (broadcastInDim S100000x1 ![0] bcast_S100000_S100000x1_0 (degGuarded (F := F) e))))
      (transpose S64x64 [1, 0] W transposes_S64x64_S64x64_1_0))
    (Host.dotGeneral dot_S100000x64_S64x64_S100000x64_1_0_0_1_n_n none x
      (transpose S64x64 [1, 0] B transposes_S64x64_S64x64_1_0))

/-! ## The run -/

/-- The program's 37 host operations, in order; the one select of the called `where` stands at its call. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x00000000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (cmpf .oeq : (⟨S100000, .f32⟩ : BufTy).Contents (Elt F) → (⟨S100000, .f32⟩ : BufTy).Contents (Elt F) → (⟨S100000, .i1⟩ : BufTy).Contents (Elt F)),
    nullary main_cst_4 (constant S_ .f32 0x3F800000#32),
    unary main_cst_4 main_v20 (broadcastInDim S100000 ![] bcast_S_S100000 : (⟨S_, .f32⟩ : BufTy).Contents (Elt F) → (⟨S100000, .f32⟩ : BufTy).Contents (Elt F)),
    TRef.ternary (TRef.of (T := ⟨S100000, .i1⟩) main_v19) (TRef.of (T := ⟨S100000, .f32⟩) main_v20) (TRef.of (T := ⟨S100000, .f32⟩) main_v17) (TRef.of (T := ⟨S100000, .f32⟩) main_v21) select,
    unary main_v21 main_v22 (broadcastInDim S100000x1 ![0] bcast_S100000_S100000x1_0 : (⟨S100000, .f32⟩ : BufTy).Contents (Elt F) → (⟨S100000x1, .f32⟩ : BufTy).Contents (Elt F)),
    unary main_v22 main_v23 (broadcastInDim S100000x64 ![0, 1] bcast_S100000x1_S100000x64_0_1 : (⟨S100000x1, .f32⟩ : BufTy).Contents (Elt F) → (⟨S100000x64, .f32⟩ : BufTy).Contents (Elt F)),
    binary main_v13 main_v23 main_v24 (Host.divf : (⟨S100000x64, .f32⟩ : BufTy).Contents (Elt F) → (⟨S100000x64, .f32⟩ : BufTy).Contents (Elt F) → (⟨S100000x64, .f32⟩ : BufTy).Contents (Elt F)),
    unary main_arg2 main_v25 ((transpose S64x64 [1, 0] · transposes_S64x64_S64x64_1_0) : (⟨S64x64, .f32⟩ : BufTy).Contents (Elt F) → (⟨S64x64, .f32⟩ : BufTy).Contents (Elt F)),
    binary main_v24 main_v25 main_v26 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v27 ((transpose S64x64 [1, 0] · transposes_S64x64_S64x64_1_0) : (⟨S64x64, .f32⟩ : BufTy).Contents (Elt F) → (⟨S64x64, .f32⟩ : BufTy).Contents (Elt F)),
    binary main_arg0 main_v27 main_v28 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v26 main_v28 main_v29 (addf : (⟨S100000x64, .f32⟩ : BufTy).Contents (Elt F) → (⟨S100000x64, .f32⟩ : BufTy).Contents (Elt F) → (⟨S100000x64, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., ternary_bufs_sub .., unary_bufs_sub .., unary_bufs_sub .., binary_bufs_sub .., unary_bufs_sub .., binary_bufs_sub .., unary_bufs_sub .., binary_bufs_sub .., binary_bufs_sub ..⟩

set_option maxHeartbeats 2000000 in
/-- On every device, from any memory with zero counters: every weakly fair execution of the program terminates with
    its result buffer at `result` of the argument arrays as launched, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
        = result (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v29).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefRun

end
-- ==== Proof.Bridge.lean ====
/-
  The kernel program's result array is the layer's output of the same aggregated messages and degrees the
  reference computes.

  Three steps. The layer's output written over the kernel's four staged arrays is the layer's output over the
  aggregated messages, the features, the degrees and the two weight matrices: the degree column's entry `(p, 0)`
  is the degree of `p`, and rows `k` and `64 + k` of the stacked weights are column `k` of `W` and of `B`. The
  two programs build the edge indices, the aggregated messages and the degrees by the same operations on the same
  arguments, so those stages are the same arrays. Hence the kernel's run ends with its result at the layer's output
  of the reference's own stages.
-/
import proofs.«167406_j31671088841315_2_alg».proof.Proof.KernelWhole
import proofs.«167406_j31671088841315_2_alg».proof.Proof.RefRun

open scoped BigOperators

noncomputable section

namespace Cert.Bridge

open Idealize.ShloMosaic Idealize.ShloMosaic.TcCoe Idealize.SL.Sem Idealize.ShloMosaic.ValueIdx

/-- The layer's output over the staged arrays is the layer's output over messages, features, degrees and weights. -/
theorem outW_eq (A X : Cert.KernelIdeal.S100000x64.Idx → EReal)
    (e : (⟨Cert.KernelIdeal.S2x1600000, .i32⟩ : BufTy).Contents (Elt Ideal))
    (W B : (⟨Cert.KernelIdeal.S64x64, .f32⟩ : BufTy).Contents (Elt Ideal)) :
    Cert.KernelIdeal.Whole.outW A X (Cert.KernelIdeal.HostStage.degCol (F := Ideal) e)
        (Cert.KernelIdeal.HostStage.weights (F := Ideal) W B)
      = Cert.DualLinear.out A X (Cert.KernelIdeal.HostStage.deg (F := Ideal) e) W B := by
  funext i
  obtain ⟨p, q, rfl⟩ : ∃ (p : Fin 100000) (q : Fin 64), i = ix2 p q := ⟨i 0, i 1, eq_ix2 i⟩
  show (∑ k : Fin 64, Ideal.div (A (ix2 p k)) (max (Cert.KernelIdeal.HostStage.degCol (F := Ideal) e (ix2 p (0 : Fin 1))) 1)
          * Cert.KernelIdeal.HostStage.weights (F := Ideal) W B (ix2 (⟨k.val, by have := k.isLt; omega⟩ : Fin 128) q))
        + ∑ k : Fin 64, X (ix2 p k)
          * Cert.KernelIdeal.HostStage.weights (F := Ideal) W B (ix2 (⟨64 + k.val, by have := k.isLt; omega⟩ : Fin 128) q)
      = (∑ k : Fin 64, Ideal.div (A (ix2 p k)) (max (Cert.KernelIdeal.HostStage.deg (F := Ideal) e (ix1 p)) 1) * W (ix2 q k))
        + ∑ k : Fin 64, X (ix2 p k) * B (ix2 q k)
  simp only [Cert.KernelIdeal.HostStage.degCol_cell, Cert.KernelIdeal.HostStage.weights_top,
    Cert.KernelIdeal.HostStage.weights_bottom]

/-- The two programs' aggregated messages are one array: the same gather and scatter of the same arguments. -/
theorem agg_eq (x : (⟨Cert.KernelIdeal.S100000x64, .f32⟩ : BufTy).Contents (Elt Ideal))
    (e : (⟨Cert.KernelIdeal.S2x1600000, .i32⟩ : BufTy).Contents (Elt Ideal)) :
    Cert.KernelIdeal.HostStage.agg (F := Ideal) x e = Cert.ReferenceIdeal.RefRun.agg (F := Ideal) x e := rfl

/-- The two programs' degrees are one vector: the same scatter of ones over the same indices. -/
theorem deg_eq (e : (⟨Cert.KernelIdeal.S2x1600000, .i32⟩ : BufTy).Contents (Elt Ideal)) :
    Cert.KernelIdeal.HostStage.deg (F := Ideal) e = Cert.ReferenceIdeal.RefRun.deg (F := Ideal) e := rfl

section
open Cert.KernelIdeal Cert.KernelIdeal.Gen

variable (m : (ℓ : Loc nD τ sig) → Buf (Elt Ideal) ℓ) (ρ : Dev nD → PrngReg)

/-- The kernel program's result array after the run, over the reference's stages. -/
theorem kernel_final (c : Dev nD) :
    (dats m 0 c).arrAt 4 cfg0.N
      = Cert.DualLinear.out
          (Cert.ReferenceIdeal.RefRun.agg (F := Ideal) (m ((c : Thread nD τ).loc main_arg0)) (m ((c : Thread nD τ).loc main_arg1)))
          (m ((c : Thread nD τ).loc main_arg0))
          (Cert.ReferenceIdeal.RefRun.deg (F := Ideal) (m ((c : Thread nD τ).loc main_arg1)))
          (m ((c : Thread nD τ).loc main_arg2)) (m ((c : Thread nD τ).loc main_arg3)) := by
  rw [Cert.KernelIdeal.Whole.final, Cert.KernelIdeal.HostStage.V_main_v13, V_main_arg0,
    Cert.KernelIdeal.HostStage.V_main_v18, Cert.KernelIdeal.HostStage.V_main_v22, outW_eq, agg_eq, deg_eq]

/-- The kernel program's run: it terminates with its result at the layer's output and its arguments unchanged. -/
theorem kernel_run : θ_run defs (onTc (τ := τ) (main (F := Ideal))) ⟨m, fun _ => 0, ρ⟩ fun r => ∀ c : Dev nD,
      r.2.mem ((c : Thread nD τ).loc main_v23)
        = Cert.DualLinear.out
            (Cert.ReferenceIdeal.RefRun.agg (F := Ideal) (m ((c : Thread nD τ).loc main_arg0)) (m ((c : Thread nD τ).loc main_arg1)))
            (m ((c : Thread nD τ).loc main_arg0))
            (Cert.ReferenceIdeal.RefRun.deg (F := Ideal) (m ((c : Thread nD τ).loc main_arg1)))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (kernel_final m c), (h c).2⟩)
    (Cert.KernelIdeal.Value.run_blocks m ρ)

end

end Cert.Bridge

end
-- ==== Proof.LibScatterRead.lean ====
/-
  An accumulating scatter (each update added onto the operand element its start index names, an update
  whose start index names no element dropped) and a gather (each result element the operand element its
  start index names, the start index clamped into range), read at an index, for the dimension numbers of
  an edge list scattered into, or gathered from, an array of nodes: one start index per edge, or a pair.
-/
import Idealize.ShloMosaic.Lib.ValueIdx

open scoped BigOperators

namespace Cert.LibScatterRead

open Idealize.ShloMosaic Idealize.ShloMosaic.ValueIdx

/-! ## Generalities -/

/-- An update lands on operand index `i` exactly when, on every axis, its start (read signed, not
    clamped) plus its window coordinate is `i`'s coordinate: a sum that leaves `[0, size)` on some axis
    drops the update, and no coordinate of `i` is outside that range. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have := congrArg (fun f => (f a).val) hi
      simp only at this
      have := h a
      omega
    · intro hi
      funext a
      refine Fin.ext ?_
      have := hi a
      show (d.start j idx a + (d.window j a : ℤ)).toNat = (i a).val
      omega
  · rename_i h
    constructor
    · intro hi; cases hi
    · intro hi
      exfalso
      refine h fun a => ?_
      have := hi a
      have := (i a).isLt
      omega

/-- Rank-1 indices are the coordinates. -/
def ix1Equiv (n : Nat) : Fin n ≃ (⟨1, ![n]⟩ : Shape).Idx where
  toFun := ix1
  invFun j := j 0
  left_inv _ := rfl
  right_inv j := (eq_ix1 j).symm

/-- Indices of an `[n, 1]` array are the first coordinates. -/
def ix2Equiv1 (n : Nat) : Fin n ≃ (⟨2, ![n, 1]⟩ : Shape).Idx where
  toFun e := ix2 e 0
  invFun j := j 0
  left_inv _ := rfl
  right_inv j := by
    funext a
    refine Fin.ext ?_
    match a with
    | ⟨0, _⟩ => rfl
    | ⟨1, _⟩ =>
      show (0 : ℕ) = (j 1).val
      have := idx2_lt1 j
      omega

/-- A sum over the members of a finite type that satisfy `P`, carried along a bijection. -/
theorem sum_filter_equiv {α β M : Type*} [Fintype α] [Fintype β] [AddCommMonoid M] (σ : α ≃ β)
    (P : β → Prop) [DecidablePred P] (f : β → M) :
    ∑ b ∈ Finset.univ.filter P, f b = ∑ a ∈ Finset.univ.filter (fun a => P (σ a)), f (σ a) := by
  rw [Finset.sum_filter, Finset.sum_filter, ← Equiv.sum_comp σ]

/-! ## One start index per edge, into a rank-1 array of nodes -/

section Scatter1
variable {N E w : Nat} (wf : ScatterDims.WF ⟨1, ![N]⟩ ⟨2, ![E, 1]⟩ ⟨1, ![E]⟩ [] [0] [0] 1)

/-- `x.at[idx].add(upd)` for `x : [N]`, `idx : [E, 1]`, `upd : [E]`: no window axes, the operand's one
    axis inserted and named by the start index's one component. -/
abbrev scatter1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Edge `e`'s start on the node axis is `idx[e, 0]` read signed. -/
theorem scatter1_start (e : Fin E) (idx : IVec ⟨2, ![E, 1]⟩ w) :
    (scatter1Dims N E wf).start (ix1 e) idx 0 = (idx (ix2 e 0)).toInt := by
  unfold ScatterDims.start
  rw [dif_pos (show (0 : Fin 1) ∈ (scatter1Dims N E wf).scatterDimsToOperandDims from List.mem_singleton.mpr rfl)]
  have hsi : (scatter1Dims N E wf).siIdx (ix1 e) ⟨List.idxOf (0 : Fin 1) (scatter1Dims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- There is no window: the window coordinate on the node axis is `0`. -/
theorem scatter1_window (j : (⟨1, ![E]⟩ : Shape).Idx) : (scatter1Dims N E wf).window j 0 = 0 := by
  unfold ScatterDims.window
  have hk : (0 : Fin 1) ∉ (scatter1Dims N E wf).sKept := by
    show (0 : Fin 1) ∉ ([] : List (Fin 1))
    exact List.not_mem_nil
  rw [dif_neg hk]

/-- Edge `e` lands on node `i` exactly when `idx[e, 0]`, read signed, is `i`. -/
theorem scatter1_resultIdx?_iff (e : Fin E) (i : Fin N) (idx : IVec ⟨2, ![E, 1]⟩ w) :
    (scatter1Dims N E wf).resultIdx? (ix1 e) idx = some (ix1 i) ↔ (idx (ix2 e 0)).toInt = (i.val : ℤ) := by
  rw [resultIdx?_eq_some_iff]
  constructor
  · intro h
    have := h 0
    rw [scatter1_start, scatter1_window, Nat.cast_zero, add_zero] at this
    exact this
  · intro h a
    obtain rfl : a = 0 := Subsingleton.elim _ _
    rw [scatter1_start, scatter1_window, Nat.cast_zero, add_zero]
    exact h

/-- THE SCATTER-ADD READ AT NODE `i`: the operand there plus the updates of the edges whose start index is `i`. -/
theorem scatterAdd1_apply {φ : FTy} (x : FVec Ideal ⟨1, ![N]⟩ φ) (idx : IVec ⟨2, ![E, 1]⟩ w)
    (upd : FVec Ideal ⟨1, ![E]⟩ φ) (i : Fin N) :
    Host.scatterAdd (F := Ideal) (scatter1Dims N E wf) x idx upd (ix1 i)
      = x (ix1 i) + ∑ e ∈ Finset.univ.filter (fun e : Fin E => (idx (ix2 e 0)).toInt = (i.val : ℤ)), upd (ix1 e) := by
  unfold Host.scatterAdd
  rw [Ideal.hostScatterAdd_def]
  unfold Ideal.hostScatterAdd
  congr 1
  rw [sum_filter_equiv (ix1Equiv E)]
  exact Finset.sum_congr (Finset.filter_congr fun e _ => scatter1_resultIdx?_iff wf e i idx) fun _ _ => rfl

/-- The same read when the start indices are known to name nodes: `col e` is edge `e`'s node. -/
theorem scatterAdd1_apply_of_nodes {φ : FTy} (x : FVec Ideal ⟨1, ![N]⟩ φ) (idx : IVec ⟨2, ![E, 1]⟩ w)
    (upd : FVec Ideal ⟨1, ![E]⟩ φ) (col : Fin E → Fin N)
    (hcol : ∀ e, (idx (ix2 e 0)).toInt = ((col e).val : ℤ)) (i : Fin N) :
    Host.scatterAdd (F := Ideal) (scatter1Dims N E wf) x idx upd (ix1 i)
      = x (ix1 i) + ∑ e ∈ Finset.univ.filter (fun e : Fin E => col e = i), upd (ix1 e) := by
  rw [scatterAdd1_apply]
  congr 1
  refine Finset.sum_congr (Finset.filter_congr fun e _ => ?_) fun _ _ => rfl
  rw [hcol e, Nat.cast_inj, Fin.val_inj]

end Scatter1

/-! ## One start index per edge, into an `[N, 1]` array of nodes: a window axis of size 1 -/

section Scatter1Col
variable {N E w : Nat} (wf : ScatterDims.WF ⟨2, ![N, 1]⟩ ⟨2, ![E, 1]⟩ ⟨2, ![E, 1]⟩ [1] [0] [0] 1)

/-- `x.at[idx].add(upd)` for `x : [N, 1]`, `idx : [E, 1]`, `upd : [E, 1]`: the updates' trailing axis is a
    window over the operand's trailing axis, the operand's leading axis inserted and named by the start
    index's one component. -/
abbrev scatter1ColDims (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Edge `e`'s start on the node axis is `idx[e, 0]` read signed. -/
theorem scatter1Col_start0 (e : Fin E) (idx : IVec ⟨2, ![E, 1]⟩ w) :
    (scatter1ColDims N E wf).start (ix2 e 0) idx 0 = (idx (ix2 e 0)).toInt := by
  unfold ScatterDims.start
  rw [dif_pos (show (0 : Fin 2) ∈ (scatter1ColDims N E wf).scatterDimsToOperandDims from List.mem_singleton.mpr rfl)]
  have hsi : (scatter1ColDims N E wf).siIdx (ix2 e 0) ⟨List.idxOf (0 : Fin 2) (scatter1ColDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The start index names no position on the trailing axis: the start there is `0`. -/
theorem scatter1Col_start1 (j : (⟨2, ![E, 1]⟩ : Shape).Idx) (idx : IVec ⟨2, ![E, 1]⟩ w) :
    (scatter1ColDims N E wf).start j idx 1 = 0 := by
  unfold ScatterDims.start
  have h : (1 : Fin 2) ∉ (scatter1ColDims N E wf).scatterDimsToOperandDims := by
    show (1 : Fin 2) ∉ ([0] : List (Fin 2))
    decide
  rw [dif_neg h]

/-- The node axis is inserted: the window coordinate there is `0`. -/
theorem scatter1Col_window0 (j : (⟨2, ![E, 1]⟩ : Shape).Idx) : (scatter1ColDims N E wf).window j 0 = 0 := by
  unfold ScatterDims.window
  have hk : (0 : Fin 2) ∉ (scatter1ColDims N E wf).sKept := by
    show (0 : Fin 2) ∉ ([1] : List (Fin 2))
    decide
  rw [dif_neg hk]

/-- The window coordinate on the trailing axis is the update's trailing coordinate, `0`. -/
theorem scatter1Col_window1 (e : Fin E) : (scatter1ColDims N E wf).window (ix2 e 0) 1 = 0 := by
  unfold ScatterDims.window
  have hk : (1 : Fin 2) ∈ (scatter1ColDims N E wf).sKept := by
    show (1 : Fin 2) ∈ ([1] : List (Fin 2))
    decide
  rw [dif_pos hk]
  rfl

/-- Update `(e, 0)` lands on `(i, 0)` exactly when `idx[e, 0]`, read signed, is `i`. -/
theorem scatter1Col_resultIdx?_iff (e : Fin E) (i : Fin N) (idx : IVec ⟨2, ![E, 1]⟩ w) :
    (scatter1ColDims N E wf).resultIdx? (ix2 e 0) idx = some (ix2 i 0) ↔ (idx (ix2 e 0)).toInt = (i.val : ℤ) := by
  rw [resultIdx?_eq_some_iff]
  constructor
  · intro h
    have := h 0
    rw [scatter1Col_start0, scatter1Col_window0, Nat.cast_zero, add_zero] at this
    exact this
  · intro h a
    match a with
    | ⟨0, _⟩ =>
      show (scatter1ColDims N E wf).start (ix2 e 0) idx 0 + ((scatter1ColDims N E wf).window (ix2 e 0) 0 : ℤ) = (i.val : ℤ)
      rw [scatter1Col_start0, scatter1Col_window0, Nat.cast_zero, add_zero]
      exact h
    | ⟨1, _⟩ =>
      show (scatter1ColDims N E wf).start (ix2 e 0) idx 1 + ((scatter1ColDims N E wf).window (ix2 e 0) 1 : ℤ) = ((0 : ℕ) : ℤ)
      rw [scatter1Col_start1, scatter1Col_window1, Nat.cast_zero, add_zero]

/-- THE SCATTER-ADD READ AT `(i, 0)`: the operand there plus the updates `(e, 0)` of the edges whose start index is `i`. -/
theorem scatterAdd1Col_apply {φ : FTy} (x : FVec Ideal ⟨2, ![N, 1]⟩ φ) (idx : IVec ⟨2, ![E, 1]⟩ w)
    (upd : FVec Ideal ⟨2, ![E, 1]⟩ φ) (i : Fin N) :
    Host.scatterAdd (F := Ideal) (scatter1ColDims N E wf) x idx upd (ix2 i 0)
      = x (ix2 i 0) + ∑ e ∈ Finset.univ.filter (fun e : Fin E => (idx (ix2 e 0)).toInt = (i.val : ℤ)), upd (ix2 e 0) := by
  unfold Host.scatterAdd
  rw [Ideal.hostScatterAdd_def]
  unfold Ideal.hostScatterAdd
  congr 1
  rw [sum_filter_equiv (ix2Equiv1 E)]
  exact Finset.sum_congr (Finset.filter_congr fun e _ => scatter1Col_resultIdx?_iff wf e i idx) fun _ _ => rfl

/-- The same read when the start indices are known to name nodes: `col e` is edge `e`'s node. -/
theorem scatterAdd1Col_apply_of_nodes {φ : FTy} (x : FVec Ideal ⟨2, ![N, 1]⟩ φ) (idx : IVec ⟨2, ![E, 1]⟩ w)
    (upd : FVec Ideal ⟨2, ![E, 1]⟩ φ) (col : Fin E → Fin N)
    (hcol : ∀ e, (idx (ix2 e 0)).toInt = ((col e).val : ℤ)) (i : Fin N) :
    Host.scatterAdd (F := Ideal) (scatter1ColDims N E wf) x idx upd (ix2 i 0)
      = x (ix2 i 0) + ∑ e ∈ Finset.univ.filter (fun e : Fin E => col e = i), upd (ix2 e 0) := by
  rw [scatterAdd1Col_apply]
  congr 1
  refine Finset.sum_congr (Finset.filter_congr fun e _ => ?_) fun _ _ => rfl
  rw [hcol e, Nat.cast_inj, Fin.val_inj]

end Scatter1Col

/-! ## A pair of start indices per edge, into a rank-2 array: the dense adjacency accumulation -/

section Scatter2
variable {N0 N1 E w : Nat} (wf : ScatterDims.WF ⟨2, ![N0, N1]⟩ ⟨2, ![E, 2]⟩ ⟨1, ![E]⟩ [] [0, 1] [0, 1] 1)

/-- `x.at[idx[:, 0], idx[:, 1]].add(upd)` for `x : [N0, N1]`, `idx : [E, 2]`, `upd : [E]`: no window axes, both
    operand axes inserted, the start index's two components naming them in order. -/
abbrev scatter2Dims (N0 N1 E : Nat) (wf : ScatterDims.WF ⟨2, ![N0, N1]⟩ ⟨2, ![E, 2]⟩ ⟨1, ![E]⟩ [] [0, 1] [0, 1] 1) :
    ScatterDims ⟨2, ![N0, N1]⟩ ⟨2, ![E, 2]⟩ ⟨1, ![E]⟩ where
  updateWindowDims := []
  insertedWindowDims := [0, 1]
  scatterDimsToOperandDims := [0, 1]
  indexVectorDim := 1
  wf := wf

/-- Edge `e`'s start on the first axis is `idx[e, 0]` read signed. -/
theorem scatter2_start0 (e : Fin E) (idx : IVec ⟨2, ![E, 2]⟩ w) :
    (scatter2Dims N0 N1 E wf).start (ix1 e) idx 0 = (idx (ix2 e 0)).toInt := by
  unfold ScatterDims.start
  have hm : (0 : Fin 2) ∈ (scatter2Dims N0 N1 E wf).scatterDimsToOperandDims := by
    show (0 : Fin 2) ∈ ([0, 1] : List (Fin 2))
    decide
  rw [dif_pos hm]
  have hsi : (scatter2Dims N0 N1 E wf).siIdx (ix1 e) ⟨List.idxOf (0 : Fin 2) (scatter2Dims N0 N1 E wf).scatterDimsToOperandDims,
      List.idxOf_lt_length_iff.2 hm⟩ = ix2 e 0 := by
    funext b; refine Fin.ext ?_
    match b with
    | ⟨0, _⟩ => rfl
    | ⟨1, _⟩ => rfl
  rw [hsi]

/-- Edge `e`'s start on the second axis is `idx[e, 1]` read signed. -/
theorem scatter2_start1 (e : Fin E) (idx : IVec ⟨2, ![E, 2]⟩ w) :
    (scatter2Dims N0 N1 E wf).start (ix1 e) idx 1 = (idx (ix2 e 1)).toInt := by
  unfold ScatterDims.start
  have hm : (1 : Fin 2) ∈ (scatter2Dims N0 N1 E wf).scatterDimsToOperandDims := by
    show (1 : Fin 2) ∈ ([0, 1] : List (Fin 2))
    decide
  rw [dif_pos hm]
  have hsi : (scatter2Dims N0 N1 E wf).siIdx (ix1 e) ⟨List.idxOf (1 : Fin 2) (scatter2Dims N0 N1 E wf).scatterDimsToOperandDims,
      List.idxOf_lt_length_iff.2 hm⟩ = ix2 e 1 := by
    funext b; refine Fin.ext ?_
    match b with
    | ⟨0, _⟩ => rfl
    | ⟨1, _⟩ => rfl
  rw [hsi]

/-- There is no window: the window coordinate is `0` on both axes. -/
theorem scatter2_window (j : (⟨1, ![E]⟩ : Shape).Idx) (a : Fin 2) : (scatter2Dims N0 N1 E wf).window j a = 0 := by
  unfold ScatterDims.window
  have hk : a ∉ (scatter2Dims N0 N1 E wf).sKept := by
    show a ∉ ([] : List (Fin 2))
    exact List.not_mem_nil
  rw [dif_neg hk]

/-- Edge `e` lands on `(j, i)` exactly when `idx[e, 0]` is `j` and `idx[e, 1]` is `i`, both read signed. -/
theorem scatter2_resultIdx?_iff (e : Fin E) (j : Fin N0) (i : Fin N1) (idx : IVec ⟨2, ![E, 2]⟩ w) :
    (scatter2Dims N0 N1 E wf).resultIdx? (ix1 e) idx = some (ix2 j i)
      ↔ (idx (ix2 e 0)).toInt = (j.val : ℤ) ∧ (idx (ix2 e 1)).toInt = (i.val : ℤ) := by
  rw [resultIdx?_eq_some_iff]
  constructor
  · intro h
    have h0 := h 0
    have h1 := h 1
    rw [scatter2_start0, scatter2_window, Nat.cast_zero, add_zero] at h0
    rw [scatter2_start1, scatter2_window, Nat.cast_zero, add_zero] at h1
    exact ⟨h0, h1⟩
  · rintro ⟨h0, h1⟩ a
    match a with
    | ⟨0, _⟩ =>
      show (scatter2Dims N0 N1 E wf).start (ix1 e) idx 0 + ((scatter2Dims N0 N1 E wf).window (ix1 e) 0 : ℤ) = (j.val : ℤ)
      rw [scatter2_start0, scatter2_window, Nat.cast_zero, add_zero]
      exact h0
    | ⟨1, _⟩ =>
      show (scatter2Dims N0 N1 E wf).start (ix1 e) idx 1 + ((scatter2Dims N0 N1 E wf).window (ix1 e) 1 : ℤ) = (i.val : ℤ)
      rw [scatter2_start1, scatter2_window, Nat.cast_zero, add_zero]
      exact h1

/-- THE SCATTER-ADD READ AT `(j, i)`: the operand there plus the updates of the edges whose pair of start
    indices is `(j, i)`. -/
theorem scatterAdd2_apply {φ : FTy} (x : FVec Ideal ⟨2, ![N0, N1]⟩ φ) (idx : IVec ⟨2, ![E, 2]⟩ w)
    (upd : FVec Ideal ⟨1, ![E]⟩ φ) (j : Fin N0) (i : Fin N1) :
    Host.scatterAdd (F := Ideal) (scatter2Dims N0 N1 E wf) x idx upd (ix2 j i)
      = x (ix2 j i) + ∑ e ∈ Finset.univ.filter (fun e : Fin E =>
          (idx (ix2 e 0)).toInt = (j.val : ℤ) ∧ (idx (ix2 e 1)).toInt = (i.val : ℤ)), upd (ix1 e) := by
  unfold Host.scatterAdd
  rw [Ideal.hostScatterAdd_def]
  unfold Ideal.hostScatterAdd
  congr 1
  rw [sum_filter_equiv (ix1Equiv E)]
  exact Finset.sum_congr (Finset.filter_congr fun e _ => scatter2_resultIdx?_iff wf e j i idx) fun _ _ => rfl

/-- The same read when both start indices are known to name nodes: `row e` and `col e` are edge `e`'s two
    nodes, and the edges summed are those with `row e = j ∧ col e = i`. -/
theorem scatterAdd2_apply_of_nodes {φ : FTy} (x : FVec Ideal ⟨2, ![N0, N1]⟩ φ) (idx : IVec ⟨2, ![E, 2]⟩ w)
    (upd : FVec Ideal ⟨1, ![E]⟩ φ) (row : Fin E → Fin N0) (col : Fin E → Fin N1)
    (hrow : ∀ e, (idx (ix2 e 0)).toInt = ((row e).val : ℤ)) (hcol : ∀ e, (idx (ix2 e 1)).toInt = ((col e).val : ℤ))
    (j : Fin N0) (i : Fin N1) :
    Host.scatterAdd (F := Ideal) (scatter2Dims N0 N1 E wf) x idx upd (ix2 j i)
      = x (ix2 j i) + ∑ e ∈ Finset.univ.filter (fun e : Fin E => row e = j ∧ col e = i), upd (ix1 e) := by
  rw [scatterAdd2_apply]
  congr 1
  refine Finset.sum_congr (Finset.filter_congr fun e _ => ?_) fun _ _ => rfl
  rw [hrow e, hcol e, Nat.cast_inj, Nat.cast_inj, Fin.val_inj, Fin.val_inj]

end Scatter2

/-! ## Clamped start indices -/

/-- The node a signed start index names once clamped into `[0, N − 1]`, as a gather reads it. -/
def clampIdx {N : Nat} (hN : 0 < N) (z : ℤ) : Fin N := ⟨min z.toNat (N - 1), by omega⟩

/-- Inside `[0, N)` the clamp is the identity. -/
theorem clampIdx_of_inRange {N : Nat} (hN : 0 < N) {z : ℤ} (h0 : 0 ≤ z) (h1 : z < N) :
    clampIdx hN z = ⟨z.toNat, by omega⟩ := by
  refine Fin.ext ?_
  show min z.toNat (N - 1) = z.toNat
  omega

/-- A signed start index is node `j` (a scatter's landing condition) exactly when it is inside `[0, N)` and
    clamps to `j` (a gather's reading). -/
theorem eq_coe_iff_clampIdx {N : Nat} (hN : 0 < N) (z : ℤ) (j : Fin N) :
    z = (j.val : ℤ) ↔ (0 ≤ z ∧ z < N) ∧ clampIdx hN z = j := by
  have hj := j.isLt
  constructor
  · intro h
    refine ⟨⟨by omega, by omega⟩, Fin.ext ?_⟩
    show min z.toNat (N - 1) = j.val
    omega
  · rintro ⟨⟨h0, h1⟩, h⟩
    have := congrArg Fin.val h
    change min z.toNat (N - 1) = j.val at this
    omega

/-! ## Gathers: one start index per edge -/

section Gather1
variable {N E w : Nat} {α : Type} (wf : GatherDims.WF ⟨1, ![N]⟩ ⟨2, ![E, 1]⟩ ⟨1, ![E]⟩ [] [0] [] [0] [] 1 ![1])

/-- `x[idx]` for `x : [N]`, `idx : [E, 1]`: slices of one element, the operand's axis collapsed and named by
    the start index's one component. -/
abbrev gather1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT EDGE `e`: the operand at `idx[e, 0]`, read signed and clamped into `[0, N − 1]`. -/
theorem gather1_apply (hN : 0 < N) (x : (⟨1, ![N]⟩ : Shape).Idx → α) (idx : IVec ⟨2, ![E, 1]⟩ w) (e : Fin E) :
    Host.gather (gather1Dims N E wf) x idx (ix1 e) = x (ix1 (clampIdx hN (idx (ix2 e 0)).toInt)) := by
  unfold Host.gather
  congr 1
  funext a
  obtain rfl : a = 0 := Subsingleton.elim _ _
  refine Fin.ext ?_
  show (gather1Dims N E wf).start (ix1 e) idx 0 + (gather1Dims N E wf).batchCoord (ix1 e) 0
    + (gather1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N E wf).startIndexMap from List.mem_singleton.mpr rfl)]
  have hsi : (gather1Dims N E wf).siIdx (ix1 e) ⟨List.idxOf (0 : Fin 1) (gather1Dims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The gather read at edge `e` when `idx[e, 0]` names a node: the operand at that node. -/
theorem gather1_apply_of_inRange (x : (⟨1, ![N]⟩ : Shape).Idx → α) (idx : IVec ⟨2, ![E, 1]⟩ w) (e : Fin E)
    (h0 : 0 ≤ (idx (ix2 e 0)).toInt) (h1 : (idx (ix2 e 0)).toInt < N) :
    Host.gather (gather1Dims N E wf) x idx (ix1 e) = x (ix1 ⟨(idx (ix2 e 0)).toInt.toNat, by omega⟩) := by
  have hN : 0 < N := by omega
  rw [gather1_apply wf hN, clampIdx_of_inRange hN h0 h1]

end Gather1

section Gather1Col
variable {N E w : Nat} {α : Type}
  (wf : GatherDims.WF ⟨2, ![N, 1]⟩ ⟨2, ![E, 1]⟩ ⟨2, ![E, 1]⟩ [1] [0] [] [0] [] 1 ![1, 1])

/-- `x[idx]` for `x : [N, 1]`, `idx : [E, 1]`: slices `[1, 1]`, the operand's leading axis collapsed and named by
    the start index's one component, its trailing axis the result's offset axis. -/
abbrev gather1ColDims (N E : Nat)
    (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- THE GATHER READ AT `(e, 0)`: the operand at `(idx[e, 0], 0)`, the start index read signed and clamped into
    `[0, N − 1]`. -/
theorem gather1Col_apply (hN : 0 < N) (x : (⟨2, ![N, 1]⟩ : Shape).Idx → α) (idx : IVec ⟨2, ![E, 1]⟩ w) (e : Fin E) :
    Host.gather (gather1ColDims N E wf) x idx (ix2 e 0) = x (ix2 (clampIdx hN (idx (ix2 e 0)).toInt) 0) := by
  unfold Host.gather
  congr 1
  funext a
  refine Fin.ext ?_
  match a with
  | ⟨0, _⟩ =>
    show (gather1ColDims N E wf).start (ix2 e 0) idx 0 + (gather1ColDims N E wf).batchCoord (ix2 e 0) 0
      + (gather1ColDims N E wf).offCoord (ix2 e 0) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather1ColDims N E wf).startIndexMap from List.mem_singleton.mpr rfl)]
    have hsi : (gather1ColDims N E wf).siIdx (ix2 e 0) ⟨List.idxOf (0 : Fin 2) (gather1ColDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gather1ColDims N E wf).start (ix2 e 0) idx 1 + (gather1ColDims N E wf).batchCoord (ix2 e 0) 1
      + (gather1ColDims N E wf).offCoord (ix2 e 0) 1 = 0
    have hs : (gather1ColDims N E wf).start (ix2 e 0) idx 1 = 0 := by
      unfold GatherDims.start
      have h : (1 : Fin 2) ∉ (gather1ColDims N E wf).startIndexMap := by
        show (1 : Fin 2) ∉ ([0] : List (Fin 2))
        decide
      rw [dif_neg h]
    have ho : (gather1ColDims N E wf).offCoord (ix2 e 0) 1 = 0 := by
      unfold GatherDims.offCoord
      have hk : (1 : Fin 2) ∈ (gather1ColDims N E wf).sKept := by
        show (1 : Fin 2) ∈ ([1] : List (Fin 2))
        decide
      rw [dif_pos hk]
      rfl
    rw [hs, GatherDims.batchCoord_eq_zero _ _ _ List.not_mem_nil, ho]

/-- The gather read at `(e, 0)` when `idx[e, 0]` names a node: the operand at `(that node, 0)`. -/
theorem gather1Col_apply_of_inRange (x : (⟨2, ![N, 1]⟩ : Shape).Idx → α) (idx : IVec ⟨2, ![E, 1]⟩ w) (e : Fin E)
    (h0 : 0 ≤ (idx (ix2 e 0)).toInt) (h1 : (idx (ix2 e 0)).toInt < N) :
    Host.gather (gather1ColDims N E wf) x idx (ix2 e 0) = x (ix2 ⟨(idx (ix2 e 0)).toInt.toNat, by omega⟩ 0) := by
  have hN : 0 < N := by omega
  rw [gather1Col_apply wf hN, clampIdx_of_inRange hN h0 h1]

end Gather1Col

end Cert.LibScatterRead
-- ==== Proof.LibSegmentCount.lean ====
/-
  A segment sum of ones counts. Scattering the constant one, once per edge, into an array of zeros leaves at each
  node the number of edges whose index is that node (an index naming no node is dropped): a natural number, so zero
  or at least one. On such a value "replace a zero by one" and "take the maximum with one" are the same guard for a
  division by the count.
-/
import Idealize.ShloMosaic.Lib.ValueIdx
import Idealize.ShloMosaic.Lib.IdealHost
import Idealize.ShloMosaic.PureOps.Ideal.Laws
import proofs.«167406_j31671088841315_2_alg».proof.Proof.LibScatterRead

open scoped BigOperators

noncomputable section

namespace Cert.LibSegmentCount

open Idealize.ShloMosaic Idealize.ShloMosaic.ValueIdx Cert.LibScatterRead

/-- A sum of ones over a finite set is the number of its members. -/
theorem sum_ones {α : Type} (S : Finset α) : (∑ _e ∈ S, (1 : EReal)) = ((S.card : ℕ) : EReal) := by
  rw [Finset.sum_const, nsmul_one]

/-- A count is zero or at least one. -/
theorem count_zero_or_one_le (n : ℕ) : ((n : ℕ) : EReal) = 0 ∨ (1 : EReal) ≤ ((n : ℕ) : EReal) := by
  rcases Nat.eq_zero_or_pos n with h | h
  · left; subst h; exact Nat.cast_zero
  · right
    have : ((1 : ℕ) : EReal) ≤ ((n : ℕ) : EReal) := Nat.cast_le.mpr h
    simpa using this

/-- Replacing a zero by one and taking the maximum with one agree on a value that is zero or at least one. -/
theorem select_zero_eq_max {d : EReal} (h : d = 0 ∨ 1 ≤ d) :
    Scalar.select (Ideal.cmp .oeq d 0) (1 : EReal) d = max d 1 := by
  rcases h with h | h
  · subst h
    rw [max_eq_right (zero_le_one' EReal)]
    simp [Ideal.cmp, Scalar.select]
  · have hne : d ≠ 0 := fun h0 => by
      rw [h0] at h
      exact absurd h (not_le.mpr zero_lt_one)
    rw [max_eq_left h]
    simp [Ideal.cmp, Scalar.select, hne]

/-- THE SEGMENT SUM OF ONES AT NODE `j`: zeros `[N]` with the constant one added once per edge at the edge's
    index is, at `j`, the number of edges whose index (read signed) is `j`. -/
theorem scatterAdd1_ones_apply {N E w : ℕ} (wf : ScatterDims.WF ⟨1, ![N]⟩ ⟨2, ![E, 1]⟩ ⟨1, ![E]⟩ [] [0] [0] 1)
    (h0 : (⟨0, ![]⟩ : Shape).BroadcastsInDim ⟨1, ![N]⟩ ![]) (h1 : (⟨0, ![]⟩ : Shape).BroadcastsInDim ⟨1, ![E]⟩ ![])
    (idx : IVec ⟨2, ![E, 1]⟩ w) (j : Fin N) :
    Host.scatterAdd (F := Ideal) (scatter1Dims N E wf)
        (broadcastInDim ⟨1, ![N]⟩ ![] h0 (constant (F := Ideal) ⟨0, ![]⟩ .f32 0x00000000#32)) idx
        (broadcastInDim ⟨1, ![E]⟩ ![] h1 (constant (F := Ideal) ⟨0, ![]⟩ .f32 0x3F800000#32)) (ix1 j)
      = (((Finset.univ.filter (fun e : Fin E => (idx (ix2 e 0)).toInt = (j.val : ℤ))).card : ℕ) : EReal) := by
  rw [scatterAdd1_apply, broadcastInDim_scalar_apply, constant_apply, Ideal.ofBits_zero_f32, zero_add, ← sum_ones]
  refine Finset.sum_congr rfl fun e _ => ?_
  rw [broadcastInDim_scalar_apply, constant_apply, Ideal.ofBits_one_f32]

/-- So it is zero or at least one. -/
theorem scatterAdd1_ones_cases {N E w : ℕ} (wf : ScatterDims.WF ⟨1, ![N]⟩ ⟨2, ![E, 1]⟩ ⟨1, ![E]⟩ [] [0] [0] 1)
    (h0 : (⟨0, ![]⟩ : Shape).BroadcastsInDim ⟨1, ![N]⟩ ![]) (h1 : (⟨0, ![]⟩ : Shape).BroadcastsInDim ⟨1, ![E]⟩ ![])
    (idx : IVec ⟨2, ![E, 1]⟩ w) (j : Fin N) :
    Host.scatterAdd (F := Ideal) (scatter1Dims N E wf)
        (broadcastInDim ⟨1, ![N]⟩ ![] h0 (constant (F := Ideal) ⟨0, ![]⟩ .f32 0x00000000#32)) idx
        (broadcastInDim ⟨1, ![E]⟩ ![] h1 (constant (F := Ideal) ⟨0, ![]⟩ .f32 0x3F800000#32)) (ix1 j) = 0
    ∨ (1 : EReal) ≤ Host.scatterAdd (F := Ideal) (scatter1Dims N E wf)
        (broadcastInDim ⟨1, ![N]⟩ ![] h0 (constant (F := Ideal) ⟨0, ![]⟩ .f32 0x00000000#32)) idx
        (broadcastInDim ⟨1, ![E]⟩ ![] h1 (constant (F := Ideal) ⟨0, ![]⟩ .f32 0x3F800000#32)) (ix1 j) := by
  rw [scatterAdd1_ones_apply]
  exact count_zero_or_one_le _

end Cert.LibSegmentCount

end
-- ==== Proof.RefCell.lean ====
/-
  The reference's result at one cell is the layer's output there.

  Each of its two matrix products, read at cell `(p, q)`, is the sum over `k < 64` of the left operand's entry
  `(p, k)` times the transposed weight's entry `(k, q)`, that is the weight's entry `(q, k)`. The divisor at
  `(p, k)` is the guarded degree of node `p`, spread along the feature axis. The degree is a segment sum of ones,
  so it is zero or at least one, and there "a zero replaced by one" is the maximum with one.
-/
import proofs.«167406_j31671088841315_2_alg».proof.Proof.RefRun
import proofs.«167406_j31671088841315_2_alg».proof.Proof.Spec
import proofs.«167406_j31671088841315_2_alg».proof.Proof.LibSegmentCount
import Idealize.ShloMosaic.Lib.ValueIdx
import Idealize.ShloMosaic.Lib.IdealHost
import Idealize.ShloMosaic.Lib.Pipeline.Value
import Idealize.ShloMosaic.PureOps.Ideal.Laws

open scoped BigOperators

noncomputable section

namespace Cert.ReferenceIdeal.RefCell

open Cert.ReferenceIdeal Cert.ReferenceIdeal.Gen Cert.ReferenceIdeal.RefRun Idealize.ShloMosaic Idealize.ShloMosaic.ValueIdx

/-! ## The matrix product's operand indices -/

theorem lhs_0 (i : S100000x64.Idx) (c : dot_S100000x64_S64x64_S100000x64_1_0_0_1_n_n.contr.Idx) : (dot_S100000x64_S64x64_S100000x64_1_0_0_1_n_n.lhsIdx i c 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl

theorem lhs_1 (i : S100000x64.Idx) (c : dot_S100000x64_S64x64_S100000x64_1_0_0_1_n_n.contr.Idx) : (dot_S100000x64_S64x64_S100000x64_1_0_0_1_n_n.lhsIdx i c 1).val = (c ⟨0, by decide⟩).val :=
  dot_S100000x64_S64x64_S100000x64_1_0_0_1_n_n.lhsIdx_val_of_single rfl i c

theorem rhs_0 (i : S100000x64.Idx) (c : dot_S100000x64_S64x64_S100000x64_1_0_0_1_n_n.contr.Idx) : (dot_S100000x64_S64x64_S100000x64_1_0_0_1_n_n.rhsIdx i c 0).val = (c ⟨0, by decide⟩).val :=
  dot_S100000x64_S64x64_S100000x64_1_0_0_1_n_n.rhsIdx_val_of_single rfl i c

theorem rhs_1 (i : S100000x64.Idx) (c : dot_S100000x64_S64x64_S100000x64_1_0_0_1_n_n.contr.Idx) : (dot_S100000x64_S64x64_S100000x64_1_0_0_1_n_n.rhsIdx i c 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- A 100000 × 64 array times a 64 × 64 array, at cell `(p, q)`: the sum over `k` of entry `(p, k)` times entry
    `(k, q)`. -/
theorem dot_cell (l : FVec Ideal S100000x64 .f32) (r : FVec Ideal S64x64 .f32) (p : Fin 100000) (q : Fin 64) :
    Host.dotGeneral dot_S100000x64_S64x64_S100000x64_1_0_0_1_n_n none l r (ix2 p q) = ∑ k : Fin 64, l (ix2 p k) * r (ix2 k q) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 p q) ((ValueIdx.contrEquiv1 dot_S100000x64_S64x64_S100000x64_1_0_0_1_n_n 64 rfl rfl).symm k) = ix2 p k :=
    funext fun a => Fin.ext (by
      match a with
      | ⟨0, _⟩ => exact lhs_0 _ _
      | ⟨1, _⟩ => exact (lhs_1 _ _).trans hk)
  have er : dot_S100000x64_S64x64_S100000x64_1_0_0_1_n_n.rhsIdx (ix2 p q) ((ValueIdx.contrEquiv1 dot_S100000x64_S64x64_S100000x64_1_0_0_1_n_n 64 rfl rfl).symm k) = ix2 k q :=
    funext fun a => Fin.ext (by
      match a with
      | ⟨0, _⟩ => exact (rhs_0 _ _).trans hk
      | ⟨1, _⟩ => exact rhs_1 _ _)
  rw [el, er]

/-- Entry `(k, q)` of a transposed 64 × 64 matrix is entry `(q, k)`. -/
theorem transpose_cell {α : Type} (W : S64x64.Idx → α) (k q : Fin 64) :
    transpose S64x64 [1, 0] W transposes_S64x64_S64x64_1_0 (ix2 k q) = W (ix2 q k) :=
  transpose_apply [1, 0] W transposes_S64x64_S64x64_1_0 (ix2 k q) (ix2 q k) (fun b => match b with
    | ⟨0, _⟩ => rfl
    | ⟨1, _⟩ => rfl)

/-- A per-node value made a column and spread along the feature axis reads, at `(p, k)`, the value of node `p`. -/
theorem spread_cell {α : Type} (v : S100000.Idx → α) (p : Fin 100000) (k : Fin 64) :
    broadcastInDim S100000x64 ![0, 1] bcast_S100000x1_S100000x64_0_1
        (broadcastInDim S100000x1 ![0] bcast_S100000_S100000x1_0 v) (ix2 p k) = v (ix1 p) := by
  rw [broadcastInDim_apply _ bcast_S100000x1_S100000x64_0_1 _ (ix2 p k) (ix2 p (0 : Fin 1)) (fun a => match a with
      | ⟨0, _⟩ => by show p.val = if (100000 : Nat) = 1 then 0 else p.val; rw [if_neg (by decide)]
      | ⟨1, _⟩ => by show 0 = if (1 : Nat) = 1 then 0 else k.val; rw [if_pos rfl]),
    broadcastInDim_apply _ bcast_S100000_S100000x1_0 _ (ix2 p (0 : Fin 1)) (ix1 p) (fun a => match a with
      | ⟨0, _⟩ => by show p.val = if (100000 : Nat) = 1 then 0 else p.val; rw [if_neg (by decide)])]

/-- The program's degree scatter has the dimension numbers of a segment sum into a vector: no window, the one
    operand axis named by the one index component. -/
theorem degDims_eq : scatter_S100000_S1600000x1_S1600000_n_0_0_1
    = Cert.LibScatterRead.scatter1Dims 100000 1600000 scatter_S100000_S1600000x1_S1600000_n_0_0_1_wf := rfl

/-- The degrees are the segment sum of ones over the destination indices. -/
theorem deg_eq (e : (⟨S2x1600000, .i32⟩ : BufTy).Contents (Elt Ideal)) :
    deg (F := Ideal) e
      = Host.scatterAdd (F := Ideal) (Cert.LibScatterRead.scatter1Dims 100000 1600000 scatter_S100000_S1600000x1_S1600000_n_0_0_1_wf)
          (broadcastInDim ⟨1, ![100000]⟩ ![] bcast_S_S100000 (constant (F := Ideal) ⟨0, ![]⟩ .f32 0x00000000#32))
          (dstIdx (F := Ideal) e)
          (broadcastInDim ⟨1, ![1600000]⟩ ![] bcast_S_S1600000 (constant (F := Ideal) ⟨0, ![]⟩ .f32 0x3F800000#32)) := by
  unfold deg
  rw [degDims_eq]

/-- The degree of a node is zero or at least one: it counts the edges arriving there. -/
theorem deg_cases (e : (⟨S2x1600000, .i32⟩ : BufTy).Contents (Elt Ideal)) (p : Fin 100000) :
    deg (F := Ideal) e (ix1 p) = 0 ∨ (1 : EReal) ≤ deg (F := Ideal) e (ix1 p) := by
  rw [deg_eq]
  exact Cert.LibSegmentCount.scatterAdd1_ones_cases (N := 100000) (E := 1600000) (w := 32)
    scatter_S100000_S1600000x1_S1600000_n_0_0_1_wf bcast_S_S100000 bcast_S_S1600000 (dstIdx (F := Ideal) e) p

/-- So the degree with a zero replaced by one is the maximum of the degree and one. -/
theorem degGuarded_apply (e : (⟨S2x1600000, .i32⟩ : BufTy).Contents (Elt Ideal)) (p : Fin 100000) :
    degGuarded (F := Ideal) e (ix1 p) = max (deg (F := Ideal) e (ix1 p)) 1 := by
  unfold degGuarded
  rw [select_apply, cmpf_apply, broadcastInDim_scalar_apply, broadcastInDim_scalar_apply, constant_apply, constant_apply,
    Ideal.ofBits_zero_f32, Ideal.ofBits_one_f32, Ideal.cmpf_def]
  exact Cert.LibSegmentCount.select_zero_eq_max (deg_cases e p)

/-- THE REFERENCE'S RESULT AT CELL `(p, q)` is the layer's output of the aggregated messages, the features, the
    degrees and the two weight matrices. -/
theorem result_cell (x : (⟨S100000x64, .f32⟩ : BufTy).Contents (Elt Ideal)) (e : (⟨S2x1600000, .i32⟩ : BufTy).Contents (Elt Ideal))
    (W B : (⟨S64x64, .f32⟩ : BufTy).Contents (Elt Ideal)) (p : Fin 100000) (q : Fin 64) :
    result (F := Ideal) x e W B (ix2 p q)
      = Cert.DualLinear.out (agg (F := Ideal) x e) x (deg (F := Ideal) e) W B (ix2 p q) := by
  unfold result Cert.DualLinear.out
  rw [addf_apply, dot_cell, dot_cell]
  refine congrArg₂ (fun s₁ s₂ : EReal => s₁ + s₂) (Finset.sum_congr rfl fun k _ => ?_) (Finset.sum_congr rfl fun k _ => ?_)
  · rw [hostDivf_apply, spread_cell, degGuarded_apply, transpose_cell]
  · rw [transpose_cell]

/-- The same for the whole array. -/
theorem result_eq (x : (⟨S100000x64, .f32⟩ : BufTy).Contents (Elt Ideal)) (e : (⟨S2x1600000, .i32⟩ : BufTy).Contents (Elt Ideal))
    (W B : (⟨S64x64, .f32⟩ : BufTy).Contents (Elt Ideal)) :
    result (F := Ideal) x e W B = Cert.DualLinear.out (agg (F := Ideal) x e) x (deg (F := Ideal) e) W B := by
  funext i
  rw [eq_ix2 i]
  exact result_cell x e W B (i 0) (i 1)

end Cert.ReferenceIdeal.RefCell

end
-- ==== Proof.lean ====
/-
  One graph-convolution layer with a dual linear update, computed two ways, is one function on the extended reals.

  For 100000 nodes with 64 features `x`, an edge list of 1600000 (source, destination) pairs and two 64 × 64 weight
  matrices `W`, `B`, both programs first sum, for every node, the feature rows of the sources of its incoming edges
  (`agg`) and count those edges (`deg`), by the same gather and scatter-add operations. The reference then divides
  `agg` row-wise by the degree with a zero replaced by one, multiplies by `Wᵀ`, and adds `x` times `Bᵀ`. The
  kernel program walks the nodes in 20 blocks of 5000; for each block it divides by the maximum of the degree and
  one, sets the quotient and `x` side by side as a 5000 × 128 array and contracts it once with `Wᵀ` stacked on `Bᵀ`.

  The two agree cell by cell: a contraction over 128 positions is the sum of its two halves (only commutativity and
  associativity of the sum are used, so nothing needs to be finite), and the degree is a count — zero or at least
  one — on which the two guards of the division coincide. The kernel's frame and the value of each block it writes
  come from the generated modules; the reference's run is read off its list of host operations.
-/
import proofs.«167406_j31671088841315_2_alg».proof.Defs
import proofs.«167406_j31671088841315_2_alg».proof.Proof.Gen.Kernel
import proofs.«167406_j31671088841315_2_alg».proof.Proof.Gen.Kernel.Skeleton
import proofs.«167406_j31671088841315_2_alg».proof.Proof.Gen.Kernel.Launch
import proofs.«167406_j31671088841315_2_alg».proof.Proof.Gen.Kernel.Points
import proofs.«167406_j31671088841315_2_alg».proof.Proof.Gen.Kernel.Frame
import proofs.«167406_j31671088841315_2_alg».proof.Proof.Gen.KernelIdeal
import proofs.«167406_j31671088841315_2_alg».proof.Proof.Gen.KernelIdeal.Skeleton
import proofs.«167406_j31671088841315_2_alg».proof.Proof.Gen.KernelIdeal.Launch
import proofs.«167406_j31671088841315_2_alg».proof.Proof.Gen.KernelIdeal.Points
import proofs.«167406_j31671088841315_2_alg».proof.Proof.Gen.KernelIdeal.Frame
import proofs.«167406_j31671088841315_2_alg».proof.Proof.Gen.ReferenceIdeal
import proofs.«167406_j31671088841315_2_alg».proof.Proof.Gen.Pre_finite_inputs
import proofs.«167406_j31671088841315_2_alg».proof.Proof.Gen.KernelIdeal.Value
import proofs.«167406_j31671088841315_2_alg».proof.Proof.Bridge
import proofs.«167406_j31671088841315_2_alg».proof.Proof.RefCell
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Reading the kernel program on the extended reals rewrote no operation. -/
theorem preserves : Cert.preserves_Kernel_KernelIdeal := trivial

/-- From memories agreeing on the arguments both programs end with the layer's output of the aggregated messages, the
    features, the degrees and the weights in their result arrays. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefCell.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
